-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S131072x512 .f32) (main_arg1 : FVec F S512x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S131072x512 : Shape := ⟨2, ![131072, 512]⟩
abbrev S512x512 : Shape := ⟨2, ![512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 9
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512x512, .bf16⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S131072x512, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S512x512_S512_d1 : S512x512.ReducesTo [1] S512
  h_S_ : 0 < S_.numel
  bcast_S512_S512x1_0 : S512.BroadcastsInDim S512x1 (![0] : Fin 1 → Fin S512x1.rank)
  shapeCasts_S512x1_S1x512 : S512x1.ShapeCasts S1x512
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S2048x1_S2048x512 : S2048x1.Broadcasts S2048x512
  broadcasts_S1x512_S2048x512 : S1x512.Broadcasts S2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩

abbrev nBuf : Space → Nat
  | .hbm => 39
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S131072x512, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S131072x512, .f32⟩
  | .hbm, ⟨13, _⟩ => ⟨S512x512, .f32⟩
  | .hbm, ⟨14, _⟩ => ⟨S131072x512, .f32⟩
  | .hbm, ⟨15, _⟩ => ⟨S_, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S131072x512, .f32⟩
  | .hbm, ⟨24, _⟩ => ⟨S131072x512, .f32⟩
  | .hbm, ⟨25, _⟩ => ⟨S_, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S131072x512, .f32⟩
  | .hbm, ⟨30, _⟩ => ⟨S131072x512, .f32⟩
  | .hbm, ⟨31, _⟩ => ⟨S_, .f32⟩
  | .hbm, ⟨32, _⟩ => ⟨S131072x512, .f32⟩
  | .hbm, ⟨33, _⟩ => ⟨S131072x512, .f32⟩
  | .hbm, ⟨34, _⟩ => ⟨S_, .f32⟩
  | .hbm, ⟨35, _⟩ => ⟨S131072, .f32⟩
  | .hbm, ⟨36, _⟩ => ⟨S131072x1, .f32⟩
  | .hbm, ⟨37, _⟩ => ⟨S131072x512, .f32⟩
  | .hbm, ⟨38, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  reducesTo_S512x512_S512_d1 : S512x512.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x512_S512x512_1_0 : S512x512.Transposes [1, 0] S512x512
  bcast_S_S131072x512 : S_.BroadcastsInDim S131072x512 (![] : Fin 0 → Fin S131072x512.rank)
  dot_S131072x512_S512x512_S131072x512_1_0_0_1_n_n_wf : DotDims.WF S131072x512 S512x512 S131072x512 [1] [0] [0] [1] [] []

variable [Facts₀]

def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.SoftAssign.lean ====
/-
  Soft assignment of points to centroids by a Student-t kernel with one degree of freedom.

  For points `x : [131072, 512]` and centroids `c : [512, 512]`, with
      d²(n, k) = max (‖x n‖² + ‖c k‖² − 2 · ⟨x n, c k⟩) 0
  the similarity of point `n` to centroid `k` is `q n k = 1 / (1 + d²(n, k) / 1)`, and the assignment is the row
  `q n ·` divided by its sum over the 512 centroids. Everything is read on the extended reals: sums are `Finset`
  sums, the quotient is the ideal instance's `Ideal.div`, and the constants one and two are kept as the f32 words
  both programs spell them with; only the zero word is evaluated (it is the extended real `0`).

  The similarity is stated once over ROWS — a point's 512 coordinates, a centroid's squared norm, the centroid's 512
  coordinates — so that the whole array and one 2048-row block of it are instances of the same function.

  The one algebraic law the comparison needs is here too: raising to the power one is the identity on every
  extended real, the infinities included (`pow_one_word`).
-/
import Idealize.ShloMosaic.PureOps.Ideal.Laws
import Idealize.ShloMosaic.Lib.ValueIdx
import Idealize.ShloMosaic.Lib.IdealHost

noncomputable section

open scoped BigOperators

namespace Cert.SoftAssign

open Idealize.ShloMosaic Idealize.ShloMosaic.ValueIdx

/-- The array of points and the array of centroids, as shapes. -/
abbrev SPts : Shape := ⟨2, ![131072, 512]⟩
abbrev SCen : Shape := ⟨2, ![512, 512]⟩

/-- The Student-t similarity from a point's coordinates `u`, a centroid's squared norm `s` and the centroid's
    coordinates `v`: `1 / (1 + max (‖u‖² + s − 2 ⟨u, v⟩) 0 / 1)`. -/
def simil (u : Fin 512 → EReal) (s : EReal) (v : Fin 512 → EReal) : EReal :=
  Ideal.div (Ideal.ofBits .f32 0x3F800000#32)
    (Ideal.ofBits .f32 0x3F800000#32
      + Ideal.div (max ((∑ d : Fin 512, u d * u d) + s - Ideal.ofBits .f32 0x40000000#32 * ∑ d : Fin 512, u d * v d) 0)
          (Ideal.ofBits .f32 0x3F800000#32))

/-- A row's similarities normalised by their sum: entry `k` of `q` over the sum of `q`. -/
def normalised (q : Fin 512 → EReal) (k : Fin 512) : EReal := Ideal.div (q k) (∑ k' : Fin 512, q k')

/-- The squared norm of centroid `k`. -/
def cenSq (c : SCen.Idx → EReal) (k : Fin 512) : EReal := ∑ d : Fin 512, c (ix2 k d) * c (ix2 k d)

/-- The similarity of point `n` to centroid `k`. -/
def kern (x : SPts.Idx → EReal) (c : SCen.Idx → EReal) (n : Fin 131072) (k : Fin 512) : EReal :=
  simil (fun d => x (ix2 n d)) (cenSq c k) (fun d => c (ix2 k d))

/-- THE ASSIGNMENT: at `(n, k)`, the similarity of point `n` to centroid `k` over the sum of point `n`'s similarities. -/
def assign (x : SPts.Idx → EReal) (c : SCen.Idx → EReal) : SPts.Idx → EReal :=
  fun i => normalised (kern x c (i 0)) (i 1)

theorem assign_ix2 (x : SPts.Idx → EReal) (c : SCen.Idx → EReal) (n : Fin 131072) (k : Fin 512) :
    assign x c (ix2 n k) = normalised (kern x c n) k := rfl

/-- Raising to the power one is the identity on the extended reals: `⊥` and `⊤` are fixed (`0 < 1`), and on a
    real it is `Real.rpow_one`. -/
theorem pow_one (a : EReal) : Ideal.pow a 1 = a := by
  induction a using EReal.rec with
  | bot => rfl
  | top =>
    rw [Ideal.pow_top, if_pos (by exact_mod_cast zero_lt_one)]
  | coe r =>
    rw [show (1 : EReal) = ((1 : ℝ) : EReal) from rfl, Ideal.pow_coe_coe]
    exact congrArg _ (Real.rpow_one r)

/-- The same with the exponent spelt as the f32 word of one. -/
theorem pow_one_word (a : EReal) : Ideal.pow a (Ideal.ofBits .f32 0x3F800000#32) = a := by
  rw [Ideal.ofBits_one_f32, pow_one]

end Cert.SoftAssign

end
-- ==== Proof.BodyAssign.lean ====
/-
  What the kernel's body computes from its three blocks, read at one entry.

  The body is handed a block `xb : [2048, 512]` of points, the row `cs : [1, 512]` of the centroids' squared norms and
  the centroids `cb : [512, 512]`, and stores one [2048, 512] block. At row `p` and lane `k` what it stores is the
  Student-t similarity of the row `xb p ·` to centroid `k` (its squared norm read from `cs`, its coordinates from
  `cb`), over the sum of that row's similarities along the lanes — `SoftAssign.normalised` of `SoftAssign.simil`.

  Three operations of the body are not entrywise: the lane sum kept as a column and broadcast back (twice: the points'
  squared norms and the similarities' row sums), the row `cs` broadcast down the rows, and the matrix product
  contracting the second axis of both operands into a zero accumulator. Each is read at `(p, k)` by a lemma of its
  own; the rest of the body is entrywise and reads through by unfolding.
-/
import proofs.«105165_j7756710936991_2_alg».proof.Proof.Gen.KernelIdeal.Skeleton
import proofs.«105165_j7756710936991_2_alg».proof.Proof.SoftAssign
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Cert.SoftAssign
open Idealize.ShloMosaic Idealize.ShloMosaic.ValueIdx

/-! ## A lane sum kept as a column and broadcast back -/

/-- A [2048] vector viewed as a [2048, 1] column reads its entry `p` at `(p, 0)`: the two have the same row-major
    position. -/
theorem column_apply {α : Type} (v : S2048.Idx → α) (p : Fin 2048) (z : Fin 1) :
    shapeCast S2048x1 v shapeCasts_S2048_S2048x1 (ix2 p z) = v (ix1 p) :=
  shapeCast_apply v shapeCasts_S2048_S2048x1 (ix2 p z) (ix1 p) (by
    rw [Shape.rowMajor_val_one, Shape.rowMajor_val_two]
    show p.val = p.val * 1 + z.val
    have := z.isLt
    omega)

/-- A [2048, 1] column broadcast along the lanes reads, at `(p, k)`, its entry `(p, 0)`. -/
theorem lanes_apply {α : Type} (w : S2048x1.Idx → α) (p : Fin 2048) (k : Fin 512) :
    broadcastTo S2048x512 w broadcasts_S2048x1_S2048x512 (ix2 p k) = w (ix2 p (0 : Fin 1)) :=
  broadcastTo_apply w broadcasts_S2048x1_S2048x512 (ix2 p k) (ix2 p (0 : Fin 1)) fun a => by
    match a with
    | ⟨0, _⟩ => show p.val = if (2048 : Nat) = 1 then 0 else p.val; rw [if_neg (by decide)]
    | ⟨1, _⟩ => show 0 = if (1 : Nat) = 1 then 0 else k.val; rw [if_pos rfl]

/-- So the sum over the lanes of a block, kept as a column and broadcast back, is at `(p, k)` the sum of row `p`. -/
theorem rowSum_apply (X : FVec Ideal S2048x512 .f32) (hφ : FKind.Formats .f32)
    (hacc : (0x00000000#32 : BitVec 32) = FKind.add.neutral .f32 hφ) (p : Fin 2048) (k : Fin 512) :
    broadcastTo S2048x512 (shapeCast S2048x1 (multiReduction .add [1] S2048 X 0x00000000#32 reduces_S2048x512_S2048 hφ hacc)
        shapeCasts_S2048_S2048x1) broadcasts_S2048x1_S2048x512 (ix2 p k)
      = ∑ d : Fin 512, X (ix2 p d) :=
  (lanes_apply _ p k).trans ((column_apply _ p 0).trans
    ((Ideal.multiReduction_add_single X 0x00000000#32 reduces_S2048x512_S2048 hφ hacc (ix1 p)).trans
      (Finset.sum_congr rfl fun d _ => congrArg X (funext fun a => Fin.ext (by
        match a with | ⟨0, _⟩ => rfl | ⟨1, _⟩ => rfl)))))

/-! ## The row of squared norms broadcast down the rows -/

/-- The one-row table, re-viewed at its own shape and broadcast over the 2048 rows, reads lane `k` of its row. -/
theorem table_apply {α : Type} (r : S1x512.Idx → α) (p : Fin 2048) (k : Fin 512) :
    broadcastTo S2048x512 (shapeCast S1x512 r shapeCasts_S1x512_S1x512) broadcasts_S1x512_S2048x512 (ix2 p k)
      = r (ix2 (0 : Fin 1) k) := by
  rw [shapeCast_self]
  exact broadcastTo_1b_ab_apply r broadcasts_S1x512_S2048x512 p k

/-! ## The matrix product -/

/-- The product's left operand index at output `(p, k)` and contraction index `q`: row `p` … -/
theorem lhs_row (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide),
    dif_pos (show (0 : Fin S2048x512.rank) ∈ dot_S2048x512_S512x512_S2048x512_1_1_0_0_n_n.lhsNonContracting by decide)]
  rfl

/-- … and the right operand's: ROW `k`, the product contracting the second axis of both operands. -/
theorem rhs_row (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide),
    dif_pos (show (0 : Fin S512x512.rank) ∈ dot_S2048x512_S512x512_S2048x512_1_1_0_0_n_n.rhsNonContracting by decide)]
  rfl

/-- The matrix product into the zero accumulator is, at `(p, k)`, the inner product of row `p` of the left operand
    with row `k` of the right one. -/
theorem product_apply (A : FVec Ideal S2048x512 .bf16) (B : FVec Ideal S512x512 .bf16) (p : Fin 2048) (k : Fin 512) :
    matmul dot_S2048x512_S512x512_S2048x512_1_1_0_0_n_n none A B (constant S2048x512 .f32 0x00000000#32) (ix2 p k)
      = ∑ d : Fin 512, A (ix2 p d) * B (ix2 k d) := by
  simp only [matmul]
  rw [Ideal.matmul_constant_zero_apply,
    ← Equiv.sum_comp (contrEquiv1 dot_S2048x512_S512x512_S2048x512_1_1_0_0_n_n 512 rfl rfl).symm]
  refine Finset.sum_congr rfl fun d _ => ?_
  have hd := contrEquiv1_symm_val dot_S2048x512_S512x512_S2048x512_1_1_0_0_n_n 512 rfl rfl d
  have el : dot_S2048x512_S512x512_S2048x512_1_1_0_0_n_n.lhsIdx (ix2 p k)
      ((contrEquiv1 dot_S2048x512_S512x512_S2048x512_1_1_0_0_n_n 512 rfl rfl).symm d) = ix2 p d :=
    funext fun a => Fin.ext (by
      match a with
      | ⟨0, _⟩ => exact lhs_row _ _
      | ⟨1, _⟩ => exact (dot_S2048x512_S512x512_S2048x512_1_1_0_0_n_n.lhsIdx_val_of_single rfl _ _).trans hd)
  have er : dot_S2048x512_S512x512_S2048x512_1_1_0_0_n_n.rhsIdx (ix2 p k)
      ((contrEquiv1 dot_S2048x512_S512x512_S2048x512_1_1_0_0_n_n 512 rfl rfl).symm d) = ix2 k d :=
    funext fun a => Fin.ext (by
      match a with
      | ⟨0, _⟩ => exact rhs_row _ _
      | ⟨1, _⟩ => exact (dot_S2048x512_S512x512_S2048x512_1_1_0_0_n_n.rhsIdx_val_of_single rfl _ _).trans hd)
  rw [el, er]

/-! ## The body's stored value at `(p, k)` -/

variable (xb : FVec Ideal S2048x512 .f32) (cs : FVec Ideal S1x512 .f32) (cb : FVec Ideal S512x512 .bf16)

/-- The block of inner products: the points' block (narrowed, which changes nothing here) times the centroids,
    contracting the second axis of both, into zero. -/
def innerBlock : FVec Ideal S2048x512 .f32 :=
  matmul (F := Ideal) dot_S2048x512_S512x512_S2048x512_1_1_0_0_n_n none (truncf .bf16 xb bitsLt_bf16_f32)
    (shapeCast S512x512 cb shapeCasts_S512x512_S512x512) (constant S2048x512 .f32 0x00000000#32)

/-- The lane sum of a block, kept as a column and broadcast back along the lanes, as the body writes it. -/
def laneSums (X : FVec Ideal S2048x512 .f32) : FVec Ideal S2048x512 .f32 :=
  broadcastTo S2048x512 (shapeCast S2048x1 (multiReduction (F := Ideal) .add [1] S2048 X 0x00000000#32
    reduces_S2048x512_S2048 (.inl rfl) rfl) shapeCasts_S2048_S2048x1) broadcasts_S2048x1_S2048x512

/-- The block of similarities `1 / (1 + max (‖x‖² + ‖c‖² − 2 ⟨x, c⟩) 0 / 1)`, as the body writes it. -/
def kernBlock : FVec Ideal S2048x512 .f32 :=
  divf (F := Ideal) (broadcast S2048x512 (Scalar.ofBits .f32 0x3F800000#32))
    (addf (broadcast S2048x512 (Scalar.ofBits .f32 0x3F800000#32))
      (divf (maximumf (subf (addf (laneSums (mulf xb xb))
              (broadcastTo S2048x512 (shapeCast S1x512 cs shapeCasts_S1x512_S1x512) broadcasts_S1x512_S2048x512))
            (mulf (broadcast S2048x512 (Scalar.ofBits .f32 0x40000000#32)) (innerBlock xb cb)))
          (broadcast S2048x512 (Scalar.ofBits .f32 0x00000000#32)))
        (broadcast S2048x512 (Scalar.ofBits .f32 0x3F800000#32))))

/-- The body's payload is the similarities over their lane sums. -/
theorem payload_eq : k0_pay1 (F := Ideal) xb cs cb = divf (kernBlock xb cs cb) (laneSums (kernBlock xb cs cb)) := rfl

/-- Row `p`'s similarities, from the body's three blocks. -/
def rowKern (p : Fin 2048) (k : Fin 512) : EReal :=
  simil (fun d => xb (ix2 p d)) (cs (ix2 (0 : Fin 1) k)) (fun d => cb (ix2 k d))

/-- The similarities' block at `(p, k)`: the three operands that are not entrywise read there, the rest entrywise. -/
theorem kernBlock_apply (p : Fin 2048) (k : Fin 512) : kernBlock xb cs cb (ix2 p k) = rowKern xb cs cb p k := by
  show Ideal.div (Ideal.ofBits .f32 0x3F800000#32) (Ideal.ofBits .f32 0x3F800000#32
      + Ideal.div (max ((laneSums (mulf xb xb) (ix2 p k)
            + broadcastTo S2048x512 (shapeCast S1x512 cs shapeCasts_S1x512_S1x512) broadcasts_S1x512_S2048x512 (ix2 p k))
          - Ideal.ofBits .f32 0x40000000#32 * innerBlock xb cb (ix2 p k))
        (Ideal.ofBits .f32 0x00000000#32)) (Ideal.ofBits .f32 0x3F800000#32)) = _
  have h1 : laneSums (mulf xb xb) (ix2 p k) = ∑ d : Fin 512, xb (ix2 p d) * xb (ix2 p d) := rowSum_apply _ _ _ p k
  have h2 : innerBlock xb cb (ix2 p k) = ∑ d : Fin 512, xb (ix2 p d) * cb (ix2 k d) := by
    unfold innerBlock
    rw [shapeCast_self]
    exact product_apply _ _ p k
  rw [h1, h2, table_apply, Ideal.ofBits_zero_f32]
  rfl

/-- THE BODY'S PAYLOAD at `(p, k)`: the similarity of row `p` to centroid `k` over the sum of row `p`'s similarities. -/
theorem payload_apply (p : Fin 2048) (k : Fin 512) :
    k0_pay1 (F := Ideal) xb cs cb (ix2 p k) = normalised (rowKern xb cs cb p) k := by
  rw [payload_eq]
  show Ideal.div (kernBlock xb cs cb (ix2 p k)) (laneSums (kernBlock xb cs cb) (ix2 p k)) = _
  rw [kernBlock_apply, show laneSums (kernBlock xb cs cb) (ix2 p k) = ∑ k' : Fin 512, kernBlock xb cs cb (ix2 p k') from
    rowSum_apply _ _ _ p k]
  simp only [kernBlock_apply]
  rfl

end Cert.KernelIdeal.Body

end
-- ==== Proof.CentroidTables.lean ====
/-
  The two tables the program computes from the centroids before its kernel runs.

  Before the grid starts, the centroids `c : [512, 512]` are turned into two arrays that every grid point then reads
  whole: the centroids themselves narrowed to a shorter float format — on the extended reals a change of format is
  the identity, so this table is `c` — and the row `[1, 512]` of their squared norms: the products `c · c` summed
  along the second axis from zero, kept as a column `[512, 1]` and re-laid as a row, so that entry `(0, k)` of the
  row is `∑ d, c (k, d)²`, the squared norm `SoftAssign.cenSq c k`.
-/
import proofs.«105165_j7756710936991_2_alg».proof.Proof.Gen.KernelIdeal.Frame
import proofs.«105165_j7756710936991_2_alg».proof.Proof.SoftAssign
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.Tables

open Cert.KernelIdeal Cert.KernelIdeal.Gen Cert.SoftAssign
open Idealize.ShloMosaic Idealize.ShloMosaic.TcCoe Idealize.SL.Sem Idealize.ShloMosaic.StableHlo
open Idealize.ShloMosaic.ValueIdx

/-- The squared norms as the program forms them — products, a sum along the second axis from zero, a column, a row —
    read at `(0, k)`: the squared norm of centroid `k`. The row's entry `(0, k)` and the column's `(k, 0)` sit at the
    same row-major position `k`; the column reads the vector's entry `k`; the sum starts from the zero word. -/
theorem normsRow_apply (C : FVec Ideal S512x512 .f32) (k : Fin 512) :
    shapeCast S1x512 (broadcastInDim S512x1 ![0] bcast_S512_S512x1_0
        (Host.reduceAdd (F := Ideal) (mulf C C) (constant S_ .f32 0x00000000#32) reducesTo_S512x512_S512_d1 h_S_))
      shapeCasts_S512x1_S1x512 (ix2 (0 : Fin 1) k) = cenSq C k := by
  refine (shapeCast_apply _ shapeCasts_S512x1_S1x512 (ix2 (0 : Fin 1) k) (ix2 k (0 : Fin 1)) ?_).trans ?_
  · rw [Shape.rowMajor_val_two, Shape.rowMajor_val_two]
    show k.val * 1 + 0 = 0 * 512 + k.val
    omega
  refine (broadcastInDim_apply _ bcast_S512_S512x1_0 _ (ix2 k (0 : Fin 1)) (ix1 k) (fun a => by
    match a with
    | ⟨0, _⟩ => show k.val = if (512 : Nat) = 1 then 0 else k.val; rw [if_neg (by decide)])).trans ?_
  simp only [Host.reduceAdd, Ideal.hostReduceAdd_def]
  rw [Ideal.hostReduceAdd_single reducesTo_S512x512_S512_d1 (by decide)]
  show Ideal.ofBits .f32 0x00000000#32 + _ = _
  rw [Ideal.ofBits_zero_f32, zero_add]
  refine Finset.sum_congr rfl fun d _ => ?_
  have hi : (by decide : S512x512.Reduces [1] S512).lift (ix1 k) d = ix2 k d :=
    funext fun a => Fin.ext (by match a with | ⟨0, _⟩ => rfl | ⟨1, _⟩ => rfl)
  show C _ * C _ = C (ix2 k d) * C (ix2 k d)
  rw [hi]
  rfl

variable (m : (ℓ : Loc nD τ sig) → Buf (Elt Ideal) ℓ)

/-- The row of squared norms, as the kernel's grid finds it. -/
theorem norms_table (c : Dev nD) (k : Fin 512) :
    V m c main_v4 (ix2 (0 : Fin 1) k) = cenSq (m ((c : Thread nD τ).loc main_arg1)) k := by
  have e : (V m c main_v4 : S1x512.Idx → EReal)
      = shapeCast S1x512 (broadcastInDim S512x1 ![0] bcast_S512_S512x1_0
          (Host.reduceAdd (F := Ideal) (mulf (m ((c : Thread nD τ).loc main_arg1)) (m ((c : Thread nD τ).loc main_arg1)))
            (constant S_ .f32 0x00000000#32) reducesTo_S512x512_S512_d1 h_S_)) shapeCasts_S512x1_S1x512 := by
    dsimp only [Gen.V, Gen.hostOps0]
    after_results
    rfl
  exact (congrFun e _).trans (normsRow_apply _ k)

/-- The narrowed centroids, as the kernel's grid finds them: the centroids. -/
theorem centroid_table (c : Dev nD) (i : S512x512.Idx) :
    V m c main_v0 i = m ((c : Thread nD τ).loc main_arg1) i := by
  have e : (V m c main_v0 : S512x512.Idx → EReal)
      = truncf (F := Ideal) .bf16 (m ((c : Thread nD τ).loc main_arg1)) bitsLt_bf16_f32 := by
    dsimp only [Gen.V, Gen.hostOps0]
    after_results
  exact congrFun e i

end Cert.KernelIdeal.Tables

end
-- ==== Proof.KernelAssign.lean ====
/-
  The kernel's result array is the soft assignment.

  The grid has 64 points. Point `t` reads rows `2048 t … 2048 t + 2047` of the points, the whole row of the
  centroids' squared norms and all the centroids, and writes back the same 2048 rows of the result, all 512 lanes.
  By the body's payload read at an entry, what point `t` writes at row `p`, lane `k` of its block is the similarity
  of point `2048 t + p` to centroid `k` over the sum of that point's similarities: entry `(2048 t + p, k)` of
  `SoftAssign.assign`. Every row `n` of the result lies in the block of point `n / 2048`, so the 64 blocks cover the
  array, and the array the run ends with is `SoftAssign.assign` of the argument arrays.
-/
import proofs.«105165_j7756710936991_2_alg».proof.Proof.Gen.KernelIdeal.Value
import proofs.«105165_j7756710936991_2_alg».proof.Proof.BodyAssign
import proofs.«105165_j7756710936991_2_alg».proof.Proof.CentroidTables

set_option maxRecDepth 16384

noncomputable section

open scoped BigOperators

namespace Cert.KernelIdeal.Assign

open Cert.KernelIdeal Cert.KernelIdeal.Gen Cert.KernelIdeal.Body Cert.KernelIdeal.Tables Cert.SoftAssign
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The index maps, decided over the 64 grid points: the points' block moves with the result's block along the
    rows and both take all the lanes; the two tables are read whole at every point; the result's block row is at
    most 63. -/
theorem blockIndices : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 63 :=
  (by decide +kernel : ∀ t : Fin grid0.N, _)

/-- Every block row of the result is some grid point's. -/
theorem blockRows_onto : ∀ q : Fin 64, ∃ t : Fin cfg0.N, win0_3.index t = ![q.val, 0] :=
  (by decide +kernel : ∀ q : Fin 64, ∃ t : Fin grid0.N, win0_3.index t = ![q.val, 0])

/-- One row of similarities from blocks is the row from the arrays, when the blocks' entries are the arrays'. -/
theorem rowKern_eq_kern (X : SPts.Idx → EReal) (C : SCen.Idx → EReal) (xb : FVec Ideal S2048x512 .f32)
    (cs : FVec Ideal S1x512 .f32) (cb : FVec Ideal S512x512 .bf16) (n : Fin 131072) (p : Fin 2048)
    (hx : ∀ d : Fin 512, xb (ix2 p d) = X (ix2 n d)) (hs : ∀ k : Fin 512, cs (ix2 (0 : Fin 1) k) = cenSq C k)
    (hc : ∀ k d : Fin 512, cb (ix2 k d) = C (ix2 k d)) :
    rowKern xb cs cb p = kern X C n := by
  funext k
  unfold rowKern kern
  rw [hs k, funext hx, funext (hc k)]

/-- WHAT POINT `t` WRITES BACK is block `t` of the assignment of the argument arrays. -/
theorem flushed_eq (c : Dev nD) (t : Fin cfg0.N) :
    (dats m 0 c).flushed 3 t = ((cfg0.win 3).blk t).view.read (Elt Ideal)
      (assign (m ((c : Thread nD τ).loc main_arg0)) (m ((c : Thread nD τ).loc main_arg1))) := by
  rw [Value.flushed3]
  unfold out0_3
  rw [View.canon_unit_zero zeroOffsets]
  simp only [View.ld_unit_zero (S := S2048x512) zeroOffsets, View.ld_unit_zero (S := S1x512) zeroOffsets,
    View.ld_unit_zero (S := S512x512) zeroOffsets]
  obtain ⟨e0, e1, e2, e3, e4, e5, e6, e7⟩ := blockIndices t
  funext j
  obtain ⟨p, k, rfl⟩ : ∃ (p : Fin 2048) (k : Fin 512), j = ix2 p k := ⟨j 0, j 1, eq_ix2 j⟩
  show k0_pay1 (F := Ideal) (iblk m c 0 t) (iblk m c 1 t) (iblk m c 2 t) (ix2 p k)
    = assign (m ((c : Thread nD τ).loc main_arg0)) (m ((c : Thread nD τ).loc main_arg1)) (((cfg0.win 3).blk t).view.emb (ix2 p k))
  refine (payload_apply (iblk m c 0 t) (iblk m c 1 t) (iblk m c 2 t) p k).trans ?_
  -- the row of the arrays this block row is
  have hrow : (((cfg0.win 3).blk t).view.emb (ix2 p k) (0 : Fin 2)).val = win0_3.index t (0 : Fin 2) * 2048 + 1 * p.val := rfl
  have hlane : ((cfg0.win 3).blk t).view.emb (ix2 p k) (1 : Fin 2) = k := Fin.ext (by
    show win0_3.index t (1 : Fin 2) * 512 + 1 * k.val = k.val
    omega)
  rw [rowKern_eq_kern (m ((c : Thread nD τ).loc main_arg0)) (m ((c : Thread nD τ).loc main_arg1)) (iblk m c 0 t)
    (iblk m c 1 t) (iblk m c 2 t) (((cfg0.win 3).blk t).view.emb (ix2 p k) (0 : Fin 2)) p ?_ ?_ ?_]
  · show normalised _ k = normalised _ (((cfg0.win 3).blk t).view.emb (ix2 p k) (1 : Fin 2))
    rw [hlane]
  · intro d
    show V m c main_arg0 (((cfg0.win 0).blk t).view.emb (ix2 p d)) = _
    rw [V_main_arg0]
    refine congrArg _ (funext fun a => Fin.ext ?_)
    match a with
    | ⟨0, _⟩ =>
      show win0_0.index t (0 : Fin 2) * 2048 + 1 * p.val = win0_3.index t (0 : Fin 2) * 2048 + 1 * p.val
      omega
    | ⟨1, _⟩ =>
      show win0_0.index t (1 : Fin 2) * 512 + 1 * d.val = d.val
      omega
  · intro k'
    show V m c main_v4 (((cfg0.win 1).blk t).view.emb (ix2 (0 : Fin 1) k')) = _
    rw [show ((cfg0.win 1).blk t).view.emb (ix2 (0 : Fin 1) k') = ix2 (0 : Fin 1) k' from funext fun a => Fin.ext (by
      match a with
      | ⟨0, _⟩ => show win0_1.index t (0 : Fin 2) * 1 + 1 * 0 = 0; omega
      | ⟨1, _⟩ => show win0_1.index t (1 : Fin 2) * 512 + 1 * k'.val = k'.val; omega)]
    exact norms_table m c k'
  · intro k' d
    show V m c main_v0 (((cfg0.win 2).blk t).view.emb (ix2 k' d)) = _
    rw [show ((cfg0.win 2).blk t).view.emb (ix2 k' d) = ix2 k' d from funext fun a => Fin.ext (by
      match a with
      | ⟨0, _⟩ => show win0_2.index t (0 : Fin 2) * 512 + 1 * k'.val = k'.val; omega
      | ⟨1, _⟩ => show win0_2.index t (1 : Fin 2) * 512 + 1 * d.val = d.val; omega)]
    exact centroid_table m c _

/-- An index of the result is in point `t`'s block iff each coordinate is in the block's range on its axis. -/
theorem mem_block (t : Fin cfg0.N) (i : S131072x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v5).slice (win0_3.rect t)).set ↔ _
  rw [View.set_slice_whole, Rect.mem_set_unit]
  exact Iff.rfl

/-- THE BLOCKS COVER THE RESULT: row `n` is in the block of the point whose block row is `n / 2048`. -/
theorem covered (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  obtain ⟨t, ht⟩ := blockRows_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- THE RESULT ARRAY after the run is the assignment of the argument arrays. -/
theorem final (c : Dev nD) : (dats m 0 c).arrAt 3 cfg0.N
    = assign (m ((c : Thread nD τ).loc main_arg0)) (m ((c : Thread nD τ).loc main_arg1)) :=
  (dats m 0 c).arrAt_eq_of_cover 3 _ (fun t _ => flushed_eq m c t) covered

/-- The kernel's run: every weakly fair execution terminates with the result array at the assignment of the
    arguments, and the arguments unchanged. -/
theorem run : θ_run defs (onTc (τ := τ) (main (F := Ideal))) ⟨m, fun _ => 0, ρ⟩ fun r => ∀ c : Dev nD,
      r.2.mem ((c : Thread nD τ).loc main_v5)
        = assign (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Assign

end
-- ==== Proof.RefAssign.lean ====
/-
  The reference computes the soft assignment.

  Read one operation at a time, the reference's result at `(n, k)` is
      pow (1 / (1 + max (‖x n‖² + ‖c k‖² − 2 · (x · cᵀ)(n, k)) 0 / 1)) 1
  over the sum of the same expression along `k`. Its sums carry the initial value zero, its matrix product contracts
  the points' second axis against the FIRST axis of the transposed centroids, and the last step before the
  normalisation raises to the power one; on the extended reals `0 + s = s`, the transposed centroids at `(d, k)` are
  the centroids at `(k, d)`, and the power one is the identity. So it is `SoftAssign.assign`.
-/
import proofs.«105165_j7756710936991_2_alg».proof.Proof.Gen.ReferenceIdeal.Read
import proofs.«105165_j7756710936991_2_alg».proof.Proof.SoftAssign

noncomputable section

open scoped BigOperators

namespace Cert.ReferenceIdeal.RefValue

open Cert.ReferenceIdeal Cert.ReferenceIdeal.Read Cert.SoftAssign
open Idealize.ShloMosaic Idealize.ShloMosaic.ValueIdx

variable (x : S131072x512.Idx → EReal) (c : S512x512.Idx → EReal)

/-! ## Where each operation reads its operands, at `(n, k)` -/

/-- The points' squared norms, broadcast twice, read row `n`. -/
theorem ptSq_idx (n : Fin 131072) (k d : Fin 512) :
    idx_main_v1 (idx_main_v2 (idx_main_v6 (ix2 n k))) d = ix2 n d :=
  funext fun a => Fin.ext (by match a with | ⟨0, _⟩ => rfl | ⟨1, _⟩ => rfl)

/-- The centroids' squared norms, broadcast twice, read row `k`. -/
theorem cenSq_idx (n : Fin 131072) (k d : Fin 512) :
    idx_main_v4 (idx_main_v5 (idx_main_v7 (ix2 n k))) d = ix2 k d :=
  funext fun a => Fin.ext (by match a with | ⟨0, _⟩ => rfl | ⟨1, _⟩ => rfl)

/-- The product's left factor at contraction index `d` is the point's coordinate `d`. -/
theorem dotL_idx (n : Fin 131072) (k d : Fin 512) : lidx_main_v10 (ix2 n k) d = ix2 n d :=
  funext fun a => Fin.ext (by match a with | ⟨0, _⟩ => rfl | ⟨1, _⟩ => rfl)

/-- Its right factor, through the transpose, is the centroid's coordinate `d`. -/
theorem dotR_idx (n : Fin 131072) (k d : Fin 512) : idx_main_v9 (ridx_main_v10 (ix2 n k) d) = ix2 k d :=
  funext fun a => Fin.ext (by match a with | ⟨0, _⟩ => rfl | ⟨1, _⟩ => rfl)

/-- The row sum of the similarities, broadcast twice, reads row `n`. -/
theorem rowSum_idx (n : Fin 131072) (k k' : Fin 512) :
    idx_main_v24 (idx_main_v25 (idx_main_v26 (ix2 n k))) k' = ix2 n k' :=
  funext fun a => Fin.ext (by match a with | ⟨0, _⟩ => rfl | ⟨1, _⟩ => rfl)

/-! ## The similarity and the assignment -/

/-- The reference's value before the normalisation is the similarity: its sums start from zero, and its power one is
    the identity. -/
theorem kern_eq (n : Fin 131072) (k : Fin 512) : val_main_v23 (F := Ideal) x c (ix2 n k) = kern x c n k := by
  simp only [val_main_v23_apply, val_main_v22_apply, val_main_cst_6_apply, val_main_v21_apply, val_main_v20_apply,
    val_main_cst_5_apply, val_main_v19_apply, val_main_v18_apply, val_main_cst_4_apply, val_main_v17_apply,
    val_main_v16_apply, val_main_cst_3_apply, val_main_v15_apply, val_main_v14_apply, val_main_cst_2_apply,
    val_main_v13_apply, val_main_v12_apply, val_main_v11_apply, val_main_cst_1_apply, val_main_v10_apply,
    val_main_v9_apply, val_main_v8_apply, val_main_v6_apply, val_main_v2_apply, val_main_v1_apply, val_main_cst_apply,
    val_main_v0_apply, val_main_v7_apply, val_main_v5_apply, val_main_v4_apply, val_main_cst_0_apply, val_main_v3_apply,
    ptSq_idx, cenSq_idx, dotL_idx, dotR_idx,
    Ideal.ofBits_def, Ideal.mulf_def, Ideal.addf_def, Ideal.subf_def, Ideal.maximumf_def, Ideal.hostDivf_def,
    Ideal.hostPowf_def, Ideal.ofBits_zero_f32, zero_add, pow_one_word]
  rfl

/-- THE REFERENCE IS THE ASSIGNMENT, index by index. -/
theorem result_eq : val_main_v27 (F := Ideal) x c = assign x c := by
  funext i
  obtain ⟨n, k, rfl⟩ : ∃ (n : Fin 131072) (k : Fin 512), i = ix2 n k := ⟨i 0, i 1, eq_ix2 i⟩
  rw [assign_ix2, val_main_v27_apply, val_main_v26_apply, val_main_v25_apply, val_main_v24_apply, val_main_cst_7_apply,
    kern_eq]
  simp only [rowSum_idx, kern_eq, Ideal.ofBits_def, Ideal.hostDivf_def, Ideal.ofBits_zero_f32, zero_add]
  rfl

end Cert.ReferenceIdeal.RefValue

end
-- ==== Proof.lean ====
/-
  A soft assignment of 131072 points to 512 centroids: kernel against reference, on the extended reals.

  Both programs compute, for points `x : [131072, 512]` and centroids `c : [512, 512]`,
      d²(n, k) = max (‖x n‖² + ‖c k‖² − 2 ⟨x n, c k⟩) 0,     q(n, k) = 1 / (1 + d²(n, k) / 1),
      result(n, k) = q(n, k) / ∑ k', q(n, k')
  (`Proof/SoftAssign.lean`: `assign`). They differ in three ways, none of which changes the value on the extended reals.

  * The kernel works on 64 blocks of 2048 rows. A row of the result depends only on the same row of the points and on
    all the centroids, so block `t` of the result is the function restricted to rows `2048 t … 2048 t + 2047`, and the
    64 blocks cover the array (`Proof/KernelAssign.lean`, over `Proof/BodyAssign.lean` for one block's entries).
  * The kernel is handed the centroids' squared norms and the centroids in a shorter float format, both computed
    from `c` before the grid starts; the reference computes the norms in place and multiplies by the transposed
    centroids. A change of float format is the identity here, the transposed centroids at `(d, k)` are the centroids at
    `(k, d)`, and a product contracting the second axis of both operands is the product with the transpose
    (`Proof/CentroidTables.lean`, `Proof/RefAssign.lean`).
  * The reference raises `q` to the power `(1 + 1) / 2 = 1` before normalising; the kernel does not. Raising to the
    power one is the identity on every extended real, `⊥` and `⊤` included (`SoftAssign.pow_one`).

  No step needs the inputs to be finite: sums and products are only re-read, never rearranged, so the equation holds
  at every extended-real input and the precondition is not opened.

  The three programs run, and keep their arguments, by their generated frames (the reference's frame is its run
  with the result dropped); the idealization rewrote no operation of the kernel, so that conjunct is `True`.
-/
import proofs.«105165_j7756710936991_2_alg».proof.Defs
import proofs.«105165_j7756710936991_2_alg».proof.Proof.Gen.Kernel
import proofs.«105165_j7756710936991_2_alg».proof.Proof.Gen.Kernel.Skeleton
import proofs.«105165_j7756710936991_2_alg».proof.Proof.Gen.Kernel.Launch
import proofs.«105165_j7756710936991_2_alg».proof.Proof.Gen.Kernel.Points
import proofs.«105165_j7756710936991_2_alg».proof.Proof.Gen.Kernel.Frame
import proofs.«105165_j7756710936991_2_alg».proof.Proof.Gen.KernelIdeal
import proofs.«105165_j7756710936991_2_alg».proof.Proof.Gen.KernelIdeal.Skeleton
import proofs.«105165_j7756710936991_2_alg».proof.Proof.Gen.KernelIdeal.Launch
import proofs.«105165_j7756710936991_2_alg».proof.Proof.Gen.KernelIdeal.Points
import proofs.«105165_j7756710936991_2_alg».proof.Proof.Gen.KernelIdeal.Frame
import proofs.«105165_j7756710936991_2_alg».proof.Proof.Gen.ReferenceIdeal
import proofs.«105165_j7756710936991_2_alg».proof.Proof.Gen.Pre_finite_inputs
import proofs.«105165_j7756710936991_2_alg».proof.Proof.Gen.KernelIdeal.Value
import proofs.«105165_j7756710936991_2_alg».proof.Proof.Gen.ReferenceIdeal.Run
import proofs.«105165_j7756710936991_2_alg».proof.Proof.Gen.ReferenceIdeal.Read
import proofs.«105165_j7756710936991_2_alg».proof.Proof.KernelAssign
import proofs.«105165_j7756710936991_2_alg».proof.Proof.RefAssign
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the result array at the soft assignment of
    those arguments: the kernel by its blocks, the reference operation by operation. -/
theorem algebraic : Cert.algebraic_KernelIdeal_ReferenceIdeal := by
  intro m ρ m' ρ' _ hagree
  refine ⟨_, Cert.KernelIdeal.Assign.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.ReferenceIdeal.RefValue.result_eq, (hagree c).1,
    (hagree c).2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
